-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_2)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg4 : FVec F S1024x2048 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  main_v23

def fn {F : FTy → Type} [FloatOps F] (main_arg0 : FVec F S16x1024x1024 .f32) (main_arg1 : FVec F S16x1024x1024 .f32) (main_arg2 : FVec F S1024x1024 .f32) (main_arg3 : FVec F S1024 .f32) (main_arg4 : FVec F S1024x2048 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S16x1024x1024 : Shape := ⟨3, ![16, 1024, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S1x256x1024 : Shape := ⟨3, ![1, 256, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S1024, .f32⟩
  | .hbm, ⟨4, _⟩ => ⟨S1024x2048, .f32⟩
  | .hbm, ⟨5, _⟩ => ⟨S1x1024, .f32⟩
  | .hbm, ⟨6, _⟩ => ⟨S16x1024x1024, .f32⟩
  | .hbm, ⟨7, _⟩ => ⟨S16x1024x1024, .f32⟩
  | .hbm, ⟨8, _⟩ => ⟨S16x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x2048, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1024x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1024x1024 : S1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  bitsLt_bf16_f32 : FTy.bits .bf16 < FTy.bits .f32
  inb_S1024x2048_S1024x1024_0_0 : ∀ a, (![0, 0] : Fin 2 → Nat) a + S1024x1024.size a ≤ S1024x2048.size a
  inb_S1024x2048_S1024x1024_0_1024 : ∀ a, (![0, 1024] : Fin 2 → Nat) a + S1024x1024.size a ≤ S1024x2048.size a
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x1024x1024.size a
  hwx0_0 : ∀ i : grid0.Coords, EltTy.bits .f32 = 32 ∨ (Rect.block (s := S16x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .f32 = 32 ∨ (Rect.block (s := S1024x2048) S1024x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S16x1024x1024.size a
  hwx0_5 : ∀ i : grid0.Coords, EltTy.bits .f32 = 32 ∨ (Rect.block (s := S16x1024x1024) S1x256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S16x1024x1024.size a
  hwx0_6 : ∀ i : grid0.Coords, EltTy.bits .f32 = 32 ∨ (Rect.block (s := S16x1024x1024) S1x256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S16x1024x1024.size a
  hwx0_7 : ∀ i : grid0.Coords, EltTy.bits .f32 = 32 ∨ (Rect.block (s := S16x1024x1024) S1x256x1024.size (cc0_transform_7 i) (hinb0_7 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1x256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1x256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_2) S1x256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x1024 : Shape := ⟨2, ![1024, 1024]⟩
abbrev S1024 : Shape := ⟨1, ![1024]⟩
abbrev S1024x2048 : Shape := ⟨2, ![1024, 2048]⟩
abbrev S1x1x1024 : Shape := ⟨3, ![1, 1, 1024]⟩
abbrev S_ : Shape := ⟨0, ![]⟩
abbrev S16x1024 : Shape := ⟨2, ![16, 1024]⟩
abbrev S16x1024x1 : Shape := ⟨3, ![16, 1024, 1]⟩
abbrev S16x1024x2048 : Shape := ⟨3, ![16, 1024, 2048]⟩

abbrev nBuf : Space → Nat
  | .hbm => 28
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S1024, .f32⟩
  | .hbm, ⟨4, _⟩ => ⟨S1024x2048, .f32⟩
  | .hbm, ⟨5, _⟩ => ⟨S16x1024x1024, .f32⟩
  | .hbm, ⟨6, _⟩ => ⟨S1x1x1024, .f32⟩
  | .hbm, ⟨7, _⟩ => ⟨S16x1024x1024, .f32⟩
  | .hbm, ⟨8, _⟩ => ⟨S16x1024x1024, .f32⟩
  | .hbm, ⟨9, _⟩ => ⟨S16x1024x1024, .f32⟩
  | .hbm, ⟨10, _⟩ => ⟨S_, .f32⟩
  | .hbm, ⟨11, _⟩ => ⟨S16x1024, .f32⟩
  | .hbm, ⟨12, _⟩ => ⟨S_, .f32⟩
  | .hbm, ⟨13, _⟩ => ⟨S16x1024, .f32⟩
  | .hbm, ⟨14, _⟩ => ⟨S16x1024, .f32⟩
  | .hbm, ⟨15, _⟩ => ⟨S16x1024x1, .f32⟩
  | .hbm, ⟨16, _⟩ => ⟨S16x1024x1024, .f32⟩
  | .hbm, ⟨17, _⟩ => ⟨S16x1024x1024, .f32⟩
  | .hbm, ⟨18, _⟩ => ⟨S16x1024x1024, .f32⟩
  | .hbm, ⟨19, _⟩ => ⟨S_, .f32⟩
  | .hbm, ⟨20, _⟩ => ⟨S16x1024, .f32⟩
  | .hbm, ⟨21, _⟩ => ⟨S16x1024x1, .f32⟩
  | .hbm, ⟨22, _⟩ => ⟨S16x1024x1024, .f32⟩
  | .hbm, ⟨23, _⟩ => ⟨S16x1024x1024, .f32⟩
  | .hbm, ⟨24, _⟩ => ⟨S16x1024x1024, .f32⟩
  | .hbm, ⟨25, _⟩ => ⟨S16x1024x2048, .f32⟩
  | .hbm, ⟨26, _⟩ => ⟨S16x1024x1024, .f32⟩
  | .hbm, ⟨27, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  concatenates_S16x1024x1024_S16x1024x1024_S16x1024x2048_d2 : Shape.Concatenates [S16x1024x1024, S16x1024x1024] S16x1024x2048 2
  dot_S16x1024x1024_S1024x1024_S16x1024x1024_2_1_01_0_n_n_wf : DotDims.WF S16x1024x1024 S1024x1024 S16x1024x1024 [2] [1] [0, 1] [0] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]
  dot_S16x1024x2048_S1024x2048_S16x1024x1024_2_1_01_0_n_n_wf : DotDims.WF S16x1024x2048 S1024x2048 S16x1024x1024 [2] [1] [0, 1] [0] [] []

variable [Facts₀]

def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf
def dot_S16x1024x2048_S1024x2048_S16x1024x1024_2_1_01_0_n_n : DotDims S16x1024x2048 S1024x2048 S16x1024x1024 where
  lhsContracting := [2]
  rhsContracting := [1]
  lhsNonContracting := [0, 1]
  rhsNonContracting := [0]
  lhsBatch := []
  rhsBatch := []
  wf := dot_S16x1024x2048_S1024x2048_S16x1024x1024_2_1_01_0_n_n_wf

class Facts : Prop extends Facts₀ where

variable [Facts]
-- ==== Proof.AttnSpec.lean ====
/-
  The attention layer both programs compute, written once over coordinates.

  Arguments: `hid` (B × T × D, the decoder states), `enc` (B × S × E, the encoder outputs), `wa` (D × E) and
  `ba` (D) the score projection, `wo` (D × (E + D)) the output projection; B = 16, T = S = E = D = 1024.

    proj b s d    = Σ_e enc[b,s,e] · wa[d,e] + ba[d]
    energy b t s  = Σ_d hid[b,t,d] · proj b s d
    rowMax b t    = max over s of energy b t s, started from -∞
    expo b t s    = exp (energy b t s - rowMax b t)
    weight b t s  = expo b t s / Σ_s' expo b t s'                         (the softmax over s)
    context b t e = Σ_s weight b t s · enc[b,s,e]
    hlin b t d    = Σ_e context b t e · wo[d,e] + Σ_e hid[b,t,e] · wo[d,1024+e]
    htilde b t d  = tanh (hlin b t d)

  The last linear map is written with its contraction over the 2048 columns of `wo` already split into the
  context half and the state half; `sum_halves` is the law that a sum over 2048 indices is the sum of the sums
  over its two halves (true in any commutative monoid, so it needs no finiteness of the extended reals).
  `max_init_fold`: a running maximum started from `a` is at least `a`, so taking the maximum with `a` once more
  changes nothing.
-/
import Idealize.ShloMosaic.PureOps.Ideal
import Idealize.ShloMosaic.Lib.ValueIdx

noncomputable section

namespace Attn

open Idealize.ShloMosaic Idealize.ShloMosaic.ValueIdx

/-- The value the row maximum starts from: the f32 word of negative infinity, read as an extended real. -/
abbrev negInf : EReal := Ideal.ofBits .f32 0xFF800000#32

/-- Column `e` of the context half of `wo`'s 2048 columns. -/
abbrev lo (e : Fin 1024) : Fin 2048 := ⟨e.val, Nat.lt_of_lt_of_le e.isLt (by decide)⟩
/-- Column `1024 + e`: column `e` of the state half. -/
abbrev hi (e : Fin 1024) : Fin 2048 := ⟨1024 + e.val, Nat.add_lt_add_left e.isLt 1024⟩

variable (hid enc : (⟨3, ![16, 1024, 1024]⟩ : Shape).Idx → EReal) (wa : (⟨2, ![1024, 1024]⟩ : Shape).Idx → EReal)
  (ba : (⟨1, ![1024]⟩ : Shape).Idx → EReal) (wo : (⟨2, ![1024, 2048]⟩ : Shape).Idx → EReal)

/-- The projected encoder output: row `s` of batch `b`, feature `d`. -/
def proj (b : Fin 16) (s d : Fin 1024) : EReal :=
  (∑ e : Fin 1024, enc (ix3 b s e) * wa (ix2 d e)) + ba (ix1 d)

/-- The attention energy of target position `t` against source position `s`. -/
def energy (b : Fin 16) (t s : Fin 1024) : EReal :=
  ∑ d : Fin 1024, hid (ix3 b t d) * proj enc wa ba b s d

/-- The largest energy of row `t`, as a running maximum from `-∞`. -/
def rowMax (b : Fin 16) (t : Fin 1024) : EReal :=
  (Finset.univ : Finset (Fin 1024)).fold max negInf (fun s => energy hid enc wa ba b t s)

/-- The shifted exponential. -/
def expo (b : Fin 16) (t s : Fin 1024) : EReal :=
  Ideal.exp (energy hid enc wa ba b t s - rowMax hid enc wa ba b t)

/-- The softmax weight. -/
def weight (b : Fin 16) (t s : Fin 1024) : EReal :=
  Ideal.div (expo hid enc wa ba b t s) (∑ s' : Fin 1024, expo hid enc wa ba b t s')

/-- The attention-weighted encoder output. -/
def context (b : Fin 16) (t e : Fin 1024) : EReal :=
  ∑ s : Fin 1024, weight hid enc wa ba b t s * enc (ix3 b s e)

/-- The output projection of the context and the state side by side, its contraction split into the two halves. -/
def hlin (b : Fin 16) (t d : Fin 1024) : EReal :=
  (∑ e : Fin 1024, context hid enc wa ba b t e * wo (ix2 d (lo e)))
    + ∑ e : Fin 1024, hid (ix3 b t e) * wo (ix2 d (hi e))

/-- The attentional state. -/
def htilde (b : Fin 16) (t d : Fin 1024) : EReal := Ideal.tanh (hlin hid enc wa ba wo b t d)

/-- The three results as arrays. -/
def energies : (⟨3, ![16, 1024, 1024]⟩ : Shape).Idx → EReal := fun i => energy hid enc wa ba (i 0) (i 1) (i 2)
def weights : (⟨3, ![16, 1024, 1024]⟩ : Shape).Idx → EReal := fun i => weight hid enc wa ba (i 0) (i 1) (i 2)
def htildes : (⟨3, ![16, 1024, 1024]⟩ : Shape).Idx → EReal := fun i => htilde hid enc wa ba wo (i 0) (i 1) (i 2)

/-- A sum over 2048 indices is the sum over the first 1024 plus the sum over the last 1024. -/
theorem sum_halves {M : Type*} [AddCommMonoid M] (f : Fin 2048 → M) :
    ∑ k : Fin 2048, f k = (∑ e : Fin 1024, f (lo e)) + ∑ e : Fin 1024, f (hi e) :=
  Fin.sum_univ_add (a := 1024) (b := 1024) (f : Fin (1024 + 1024) → M)

/-- A running maximum started from `a` already dominates `a`. -/
theorem max_init_fold (a : EReal) (f : Fin 1024 → EReal) :
    max a ((Finset.univ : Finset (Fin 1024)).fold max a f) = (Finset.univ : Finset (Fin 1024)).fold max a f :=
  max_eq_right ((Finset.le_fold_max a).mpr (Or.inl le_rfl))

end Attn

end
-- ==== Proof.AttnRef.lean ====
/-
  The reference, read at an index: each of its stages is the attention layer's quantity of the same name.

  The reference computes the projection as a contraction plus a broadcast bias, the energies as a batched
  contraction, the softmax in jax's spelling (a maximum reduced from -∞ and then once more taken against -∞, the
  exponential of the difference, a sum from zero, a quotient), the context as a batched contraction, and the
  attentional state as ONE contraction over the 2048 columns of the context and the state laid side by side.
  Three facts join it to the kernel's arrangement: a running maximum from -∞ already dominates -∞; a sum from
  zero is the sum; and the contraction over the 2048 concatenated columns is the sum of the contractions over the
  two halves, the first half read from the context and the second from the state.
-/
import proofs.«165069_j21706764714809_2_alg».proof.Proof.Gen.ReferenceIdeal.Read
import proofs.«165069_j21706764714809_2_alg».proof.Proof.AttnSpec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read

variable (x0 x1 : (⟨S16x1024x1024, .f32⟩ : BufTy).Contents (Elt Ideal)) (x2 : (⟨S1024x1024, .f32⟩ : BufTy).Contents (Elt Ideal))
  (x3 : (⟨S1024, .f32⟩ : BufTy).Contents (Elt Ideal)) (x4 : (⟨S1024x2048, .f32⟩ : BufTy).Contents (Elt Ideal))

/-- The projection with its bias. -/
theorem proj_apply (b : Fin 16) (s d : Fin 1024) :
    val_main_v3 (F := Ideal) x1 x2 x3 (ix3 b s d) = Attn.proj x1 x2 x3 b s d := by
  rw [val_main_v3_apply, val_main_v0_apply, val_main_v2_apply, val_main_v1_apply]
  have e1 : ∀ k : Fin 1024, lidx_main_v0 (ix3 b s d) k = ix3 b s k := fun k => funext fun a => by match a with | ⟨0, _⟩ => rfl | ⟨1, _⟩ => rfl | ⟨2, _⟩ => rfl
  have e2 : ∀ k : Fin 1024, ridx_main_v0 (ix3 b s d) k = ix2 d k := fun k => funext fun a => by match a with | ⟨0, _⟩ => rfl | ⟨1, _⟩ => rfl
  have e3 : idx_main_v1 (idx_main_v2 (ix3 b s d)) = ix1 d := funext fun a => by match a with | ⟨0, _⟩ => rfl
  simp only [e1, e2, e3]
  rfl

/-- The energies. -/
theorem energy_apply (b : Fin 16) (t s : Fin 1024) :
    val_main_v4 (F := Ideal) x0 x1 x2 x3 (ix3 b t s) = Attn.energy x0 x1 x2 x3 b t s := by
  rw [val_main_v4_apply]
  unfold Attn.energy
  refine Finset.sum_congr rfl fun d _ => ?_
  have e1 : lidx_main_v4 (ix3 b t s) d = ix3 b t d := funext fun a => by match a with | ⟨0, _⟩ => rfl | ⟨1, _⟩ => rfl | ⟨2, _⟩ => rfl
  have e2 : ridx_main_v4 (ix3 b t s) d = ix3 b s d := funext fun a => by match a with | ⟨0, _⟩ => rfl | ⟨1, _⟩ => rfl | ⟨2, _⟩ => rfl
  rw [e1, e2, proj_apply]

/-- The row maximum: reduced from -∞, then taken against -∞ once more. -/
theorem max_apply (b : Fin 16) (t : Fin 1024) :
    val_main_v7 (F := Ideal) x0 x1 x2 x3 (ix2 b t) = Attn.rowMax x0 x1 x2 x3 b t := by
  rw [val_main_v7_apply, val_main_v6_apply, val_main_cst_0_apply]
  unfold val_main_v5
  rw [Host.reduce_eq_fold_single FloatOps.maximumf _ _ reducesTo_S16x1024x1024_S16x1024_d2 (by decide) h_S_ (ix2 b t)]
  rw [val_main_cst_apply]
  show max Attn.negInf ((Finset.univ : Finset (Fin 1024)).fold max Attn.negInf _) = _
  refine (Attn.max_init_fold Attn.negInf _).trans ?_
  unfold Attn.rowMax
  refine congrArg (fun f => (Finset.univ : Finset (Fin 1024)).fold max Attn.negInf f) (funext fun s => ?_)
  refine Eq.trans (congrArg (val_main_v4 (F := Ideal) x0 x1 x2 x3) ?_) (energy_apply x0 x1 x2 x3 b t s)
  exact funext fun a => by match a with | ⟨0, _⟩ => rfl | ⟨1, _⟩ => rfl | ⟨2, _⟩ => rfl

/-- The shifted exponential. -/
theorem expo_apply (b : Fin 16) (t s : Fin 1024) :
    val_main_v11 (F := Ideal) x0 x1 x2 x3 (ix3 b t s) = Attn.expo x0 x1 x2 x3 b t s := by
  rw [val_main_v11_apply, val_main_v10_apply, val_main_v9_apply, val_main_v8_apply]
  have e1 : idx_main_v8 (idx_main_v9 (ix3 b t s)) = ix2 b t := funext fun a => by match a with | ⟨0, _⟩ => rfl | ⟨1, _⟩ => rfl
  rw [e1, max_apply, energy_apply]
  rfl

/-- The softmax weight: the sum from zero is the sum. -/
theorem weight_apply (b : Fin 16) (t s : Fin 1024) :
    val_main_v15 (F := Ideal) x0 x1 x2 x3 (ix3 b t s) = Attn.weight x0 x1 x2 x3 b t s := by
  rw [val_main_v15_apply, val_main_v14_apply, val_main_v13_apply]
  have e1 : idx_main_v13 (idx_main_v14 (ix3 b t s)) = ix2 b t := funext fun a => by match a with | ⟨0, _⟩ => rfl | ⟨1, _⟩ => rfl
  rw [e1, val_main_v12_apply, val_main_cst_1_apply, expo_apply]
  have e2 : ∀ k : Fin 1024, idx_main_v12 (ix2 b t) k = ix3 b t k := fun k => funext fun a => by match a with | ⟨0, _⟩ => rfl | ⟨1, _⟩ => rfl | ⟨2, _⟩ => rfl
  simp only [e2, expo_apply]
  show Ideal.div _ (Ideal.ofBits .f32 0x00000000#32 + _) = _
  rw [Ideal.ofBits_zero_f32, zero_add]
  rfl

/-- The context. -/
theorem context_apply (b : Fin 16) (t e : Fin 1024) :
    val_main_v16 (F := Ideal) x0 x1 x2 x3 (ix3 b t e) = Attn.context x0 x1 x2 x3 b t e := by
  rw [val_main_v16_apply]
  unfold Attn.context
  refine Finset.sum_congr rfl fun s _ => ?_
  have e1 : lidx_main_v16 (ix3 b t e) s = ix3 b t s := funext fun a => by match a with | ⟨0, _⟩ => rfl | ⟨1, _⟩ => rfl | ⟨2, _⟩ => rfl
  have e2 : ridx_main_v16 (ix3 b t e) s = ix3 b s e := funext fun a => by match a with | ⟨0, _⟩ => rfl | ⟨1, _⟩ => rfl | ⟨2, _⟩ => rfl
  rw [e1, e2, weight_apply]

/-- The concatenation's first 1024 columns are the context; -/
theorem concat_lo (b : Fin 16) (t e : Fin 1024) :
    val_main_v17 (F := Ideal) x0 x1 x2 x3 (ix3 b t (Attn.lo e)) = Attn.context x0 x1 x2 x3 b t e := by
  unfold val_main_v17
  refine (concatenate_pair_apply_left (2 : Fin S16x1024x2048.rank) _ _ concatenates_S16x1024x1024_S16x1024x1024_S16x1024x2048_d2
    (ix3 b t (Attn.lo e)) rfl (ix3 b t e) (fun bb => by match bb with | ⟨0, _⟩ => rfl | ⟨1, _⟩ => rfl | ⟨2, _⟩ => rfl)).trans ?_
  exact context_apply x0 x1 x2 x3 b t e

/-- its last 1024 columns the state. -/
theorem concat_hi (b : Fin 16) (t e : Fin 1024) :
    val_main_v17 (F := Ideal) x0 x1 x2 x3 (ix3 b t (Attn.hi e)) = x0 (ix3 b t e) := by
  unfold val_main_v17
  exact concatenate_pair_apply_right (2 : Fin S16x1024x2048.rank) _ _ concatenates_S16x1024x1024_S16x1024x1024_S16x1024x2048_d2
    (ix3 b t (Attn.hi e)) rfl rfl (ix3 b t e)
    (fun bb hne => by match bb with | ⟨0, _⟩ => rfl | ⟨1, _⟩ => rfl | ⟨2, _⟩ => exact absurd rfl hne)
    (by show e.val + 1024 = 1024 + e.val; omega)

/-- The output projection: one contraction over 2048 columns is the sum of the two halves' contractions. -/
theorem hlin_apply (b : Fin 16) (t d : Fin 1024) :
    val_main_v18 (F := Ideal) x0 x1 x2 x3 x4 (ix3 b t d) = Attn.hlin x0 x1 x2 x3 x4 b t d := by
  rw [val_main_v18_apply, Attn.sum_halves]
  unfold Attn.hlin
  refine congrArg₂ (· + ·) (Finset.sum_congr rfl fun e _ => ?_) (Finset.sum_congr rfl fun e _ => ?_)
  · have e1 : lidx_main_v18 (ix3 b t d) (Attn.lo e) = ix3 b t (Attn.lo e) := funext fun a => by match a with | ⟨0, _⟩ => rfl | ⟨1, _⟩ => rfl | ⟨2, _⟩ => rfl
    have e2 : ridx_main_v18 (ix3 b t d) (Attn.lo e) = ix2 d (Attn.lo e) := funext fun a => by match a with | ⟨0, _⟩ => rfl | ⟨1, _⟩ => rfl
    rw [e1, e2, concat_lo]
  · have e1 : lidx_main_v18 (ix3 b t d) (Attn.hi e) = ix3 b t (Attn.hi e) := funext fun a => by match a with | ⟨0, _⟩ => rfl | ⟨1, _⟩ => rfl | ⟨2, _⟩ => rfl
    have e2 : ridx_main_v18 (ix3 b t d) (Attn.hi e) = ix2 d (Attn.hi e) := funext fun a => by match a with | ⟨0, _⟩ => rfl | ⟨1, _⟩ => rfl
    rw [e1, e2, concat_hi]

/-- The attentional state. -/
theorem htilde_apply (b : Fin 16) (t d : Fin 1024) :
    val_main_v19 (F := Ideal) x0 x1 x2 x3 x4 (ix3 b t d) = Attn.htilde x0 x1 x2 x3 x4 b t d := by
  rw [val_main_v19_apply, hlin_apply]
  rfl

/-! ## The three results as arrays -/

theorem energies_eq : val_main_v4 (F := Ideal) x0 x1 x2 x3 = Attn.energies x0 x1 x2 x3 := by
  funext i
  obtain ⟨b, t, s, rfl⟩ : ∃ (b : Fin 16) (t s : Fin 1024), i = ix3 b t s := ⟨i 0, i 1, i 2, eq_ix3 i⟩
  exact energy_apply x0 x1 x2 x3 b t s

theorem weights_eq : val_main_v15 (F := Ideal) x0 x1 x2 x3 = Attn.weights x0 x1 x2 x3 := by
  funext i
  obtain ⟨b, t, s, rfl⟩ : ∃ (b : Fin 16) (t s : Fin 1024), i = ix3 b t s := ⟨i 0, i 1, i 2, eq_ix3 i⟩
  exact weight_apply x0 x1 x2 x3 b t s

theorem htildes_eq : val_main_v19 (F := Ideal) x0 x1 x2 x3 x4 = Attn.htildes x0 x1 x2 x3 x4 := by
  funext i
  obtain ⟨b, t, d, rfl⟩ : ∃ (b : Fin 16) (t d : Fin 1024), i = ix3 b t d := ⟨i 0, i 1, i 2, eq_ix3 i⟩
  exact htilde_apply x0 x1 x2 x3 x4 b t d

end Cert.ReferenceIdeal.RefValue

end
-- ==== Proof.AttnBody.lean ====
/-
  The kernel body's arithmetic, read at an index over the extended reals.

  Each lemma takes the blocks the body loads as variables and says what one entry of a value the body computes is:
  the projection `Σ_e enc[0,s,e] · wa[d,e] + ba[0,d]` the first point of a batch stores in the scratch; the energies
  `Σ_d hid[0,r,d] · proj[s,d]` of a tile of 256 target rows against the scratch; the softmax of a row of energies
  (its maximum a running maximum from -∞, its denominator a plain sum); and the attentional state, the hyperbolic
  tangent of the sum of two matrix products, one with each half of the output weights. A matrix product into a zero
  accumulator is a plain sum over the contracted coordinate, a change of float format is the identity, a transposed
  operand swaps its two coordinates.
-/
import proofs.«165069_j21706764714809_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Body

open Cert.KernelIdeal Cert.KernelIdeal.Gen

/-! ## Layout: a column vector from a vector, and a column spread over the lanes -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p`'s one entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products' operand indices -/

theorem lhsA_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhsA_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhsA_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhsA_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem lhsB_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhsB_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhsB_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhsB_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The 1024 × 1024 by 1024 × 1024 product into the zero block, at `(p, q)`: `Σ_k l[p,k] · r[k,q]`. -/
theorem matmulA_apply {φ₁ φ₂ : FTy} (prec : Option ContractPrecision) (l : FVec Ideal S1024x1024 φ₁) (r : FVec Ideal S1024x1024 φ₂)
    (p q : Fin 1024) :
    matmul dot_S1024x1024_S1024x1024_S1024x1024_1_0_0_1_n_n prec l r (constant (F := Ideal) S1024x1024 .f32 0x00000000#32) (ix2 p q)
      = ∑ k : Fin 1024, l (ix2 p k) * r (ix2 k q) := by
  refine (Ideal.matmul_constant_zero_apply dot_S1024x1024_S1024x1024_S1024x1024_1_0_0_1_n_n prec l r (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhsA_0 _ _
    | ⟨1, _⟩ => exact (lhsA_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhsA_0 _ _).trans hk
    | ⟨1, _⟩ => exact rhsA_1 _ _)
  rw [el, er]

/-- The 256 × 1024 by 1024 × 1024 product into the zero block, at `(p, q)`: `Σ_k l[p,k] · r[k,q]`. -/
theorem matmulB_apply {φ₁ φ₂ : FTy} (prec : Option ContractPrecision) (l : FVec Ideal S256x1024 φ₁) (r : FVec Ideal S1024x1024 φ₂)
    (p : Fin 256) (q : Fin 1024) :
    matmul dot_S256x1024_S1024x1024_S256x1024_1_0_0_1_n_n prec l r (constant (F := Ideal) S256x1024 .f32 0x00000000#32) (ix2 p q)
      = ∑ k : Fin 1024, l (ix2 p k) * r (ix2 k q) := by
  refine (Ideal.matmul_constant_zero_apply dot_S256x1024_S1024x1024_S256x1024_1_0_0_1_n_n prec l r (ix2 p q)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhsB_0 _ _
    | ⟨1, _⟩ => exact (lhsB_1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhsB_0 _ _).trans hk
    | ⟨1, _⟩ => exact rhsB_1 _ _)
  rw [el, er]

/-! ## The two lane reductions of a 256 × 1024 tile -/

/-- The sum along the lanes, at row `r`. -/
theorem rowSum_apply (src : FVec Ideal S256x1024 .f32) (hφ : FKind.Formats .f32)
    (hacc : (0x00000000#32 : BitVec 32) = 0x00000000#32) (r : Fin 256) :
    multiReduction .add [1] S256 src 0x00000000#32 reduces_S256x1024_S256 hφ hacc (ix1 r) = ∑ s : Fin 1024, src (ix2 r s) := by
  refine (Ideal.multiReduction_add_single src 0x00000000#32 reduces_S256x1024_S256 hφ hacc (ix1 r)).trans ?_
  refine Finset.sum_congr rfl fun s _ => congrArg src (funext fun a => Fin.ext ?_)
  match a with
  | ⟨0, _⟩ => rfl
  | ⟨1, _⟩ => rfl

/-- The maximum along the lanes, at row `r`: the running maximum from the accumulator's value. -/
theorem rowMax_apply (src : FVec Ideal S256x1024 .f32) (hφ : FKind.Formats .f32)
    (hacc : (0xFF800000#32 : BitVec 32) = 0xFF800000#32) (r : Fin 256) :
    multiReduction .maximumf [1] S256 src 0xFF800000#32 reduces_S256x1024_S256 hφ hacc (ix1 r)
      = (Finset.univ : Finset (Fin 1024)).fold max (Ideal.ofBits .f32 0xFF800000#32) (fun s => src (ix2 r s)) := by
  refine (Ideal.multiReduction_maximumf_single src 0xFF800000#32 reduces_S256x1024_S256 hφ hacc (ix1 r)).trans ?_
  refine congrArg (fun f => (Finset.univ : Finset (Fin 1024)).fold max (Ideal.ofBits .f32 0xFF800000#32) f) (funext fun s => ?_)
  refine congrArg src (funext fun a => Fin.ext ?_)
  match a with
  | ⟨0, _⟩ => rfl
  | ⟨1, _⟩ => rfl

/-! ## The payloads at an index -/

/-- The projection stored in the scratch: `Σ_e enc[0,s,e] · wa[d,e] + ba[0,d]`. -/
theorem proj_apply (x1 : FVec Ideal S1x1024x1024 .f32) (x2 : FVec Ideal S1024x1024 .f32) (x3 : FVec Ideal S1x1024 .f32)
    (s d : Fin 1024) :
    k0_pay4 (F := Ideal) x1 x2 x3 (ix2 s d)
      = (∑ e : Fin 1024, x1 (ix3 (0 : Fin 1) s e) * x2 (ix2 d e)) + x3 (ix2 (0 : Fin 1) d) := by
  unfold k0_pay4
  rw [shapeCast_self]
  refine (addf_apply _ _ _).trans ?_
  refine congrArg₂ (· + ·) ?_ ?_
  · refine (matmulA_apply _ _ _ s d).trans ?_
    refine Finset.sum_congr rfl fun e _ => ?_
    rw [shapeCast_1ab_ab_apply, transpose_ix2_apply]
  · rw [broadcastTo_1b_ab_apply, shapeCast_self]

/-- The energies of a tile of target rows against the scratch: `Σ_d hid[0,r,d] · proj[s,d]`. -/
theorem energy_apply (x0 : FVec Ideal S1x256x1024 .f32) (xs : FVec Ideal S1024x1024 .f32) (r : Fin 256) (s : Fin 1024) :
    k0_pay6 (F := Ideal) x0 xs (ix2 r s) = ∑ d : Fin 1024, x0 (ix3 (0 : Fin 1) r d) * xs (ix2 s d) := by
  unfold k0_pay6 k0_pay5
  refine (matmulB_apply _ _ _ r s).trans ?_
  refine Finset.sum_congr rfl fun d _ => ?_
  rw [shapeCast_1ab_ab_apply, transpose_ix2_apply]

/-- A row's softmax: the exponential of the energy less the row's maximum, over the sum of those exponentials. -/
theorem weight_apply (x0 : FVec Ideal S1x256x1024 .f32) (xs : FVec Ideal S1024x1024 .f32) (r : Fin 256) (s : Fin 1024) :
    k0_pay7 (F := Ideal) x0 xs (ix2 r s)
      = Ideal.div
          (Ideal.exp (k0_pay6 (F := Ideal) x0 xs (ix2 r s)
            - (Finset.univ : Finset (Fin 1024)).fold max (Ideal.ofBits .f32 0xFF800000#32) (fun s' => k0_pay6 (F := Ideal) x0 xs (ix2 r s'))))
          (∑ s'' : Fin 1024, Ideal.exp (k0_pay6 (F := Ideal) x0 xs (ix2 r s'')
            - (Finset.univ : Finset (Fin 1024)).fold max (Ideal.ofBits .f32 0xFF800000#32) (fun s' => k0_pay6 (F := Ideal) x0 xs (ix2 r s')))) := by
  have hsub : ∀ q : Fin 1024,
      exp (subf (k0_pay6 (F := Ideal) x0 xs) (broadcastTo S256x1024 (shapeCast S256x1 (multiReduction .maximumf [1] S256 (k0_pay6 (F := Ideal) x0 xs) 0xFF800000#32 reduces_S256x1024_S256 (.inl rfl) rfl) shapeCasts_S256_S256x1) broadcasts_S256x1_S256x1024)) (ix2 r q)
        = Ideal.exp (k0_pay6 (F := Ideal) x0 xs (ix2 r q)
            - (Finset.univ : Finset (Fin 1024)).fold max (Ideal.ofBits .f32 0xFF800000#32) (fun s' => k0_pay6 (F := Ideal) x0 xs (ix2 r s'))) := by
    intro q
    show Ideal.exp (k0_pay6 (F := Ideal) x0 xs (ix2 r q) - broadcastTo S256x1024 _ broadcasts_S256x1_S256x1024 (ix2 r q)) = _
    rw [broadcastTo_a1_ab_apply, shapeCast_a_a1_apply]
    exact congrArg (fun z => Ideal.exp (k0_pay6 (F := Ideal) x0 xs (ix2 r q) - z)) (rowMax_apply _ _ _ r)
  unfold k0_pay7
  refine (divf_apply _ _ _).trans ?_
  refine congrArg₂ Ideal.div (hsub s) ?_
  rw [broadcastTo_a1_ab_apply, shapeCast_a_a1_apply]
  refine (rowSum_apply _ _ _ r).trans ?_
  exact Finset.sum_congr rfl fun q _ => hsub q

/-- The attentional state: `tanh (Σ_e (Σ_s w[r,s] · enc[0,s,e]) · wc[d,e] + Σ_e hid[0,r,e] · wh[d,e])`, `wc` and `wh` the two halves
    of the output weights as the body loads them. -/
theorem htilde_apply (x0 : FVec Ideal S1x256x1024 .f32) (xs : FVec Ideal S1024x1024 .f32) (x1 : FVec Ideal S1x1024x1024 .f32)
    (wc wh : FVec Ideal S1024x1024 .f32) (r : Fin 256) (d : Fin 1024) :
    k0_pay8 (F := Ideal) x0 xs x1 wc wh (ix2 r d)
      = Ideal.tanh ((∑ e : Fin 1024, (∑ s : Fin 1024, k0_pay7 (F := Ideal) x0 xs (ix2 r s) * x1 (ix3 (0 : Fin 1) s e)) * wc (ix2 d e))
          + ∑ e : Fin 1024, x0 (ix3 (0 : Fin 1) r e) * wh (ix2 d e)) := by
  unfold k0_pay8 k0_pay5
  show Ideal.tanh (_ + _) = _
  rw [matmulB_apply, matmulB_apply]
  refine congrArg Ideal.tanh (congrArg₂ (· + ·) (Finset.sum_congr rfl fun e _ => ?_) (Finset.sum_congr rfl fun e _ => ?_))
  · rw [transpose_ix2_apply]
    refine congrArg₂ (· * ·) ?_ rfl
    refine (matmulB_apply none _ _ r e).trans (Finset.sum_congr rfl fun s _ => ?_)
    exact congrArg₂ (· * ·) rfl (shapeCast_1ab_ab_apply _ _ s e)
  · rw [transpose_ix2_apply]
    exact congrArg₂ (· * ·) (shapeCast_1ab_ab_apply _ _ r e) rfl

end Cert.KernelIdeal.Body

end
-- ==== Proof.AttnPieces.lean ====
/-
  What one run of the kernel body leaves behind, as values.

  The body either starts a batch (case A: it first stores the projection of the batch's encoder block into the
  scratch and then reads it back) or continues one (case B: it reads the scratch as the point before left it).
  In both cases it then stores three tiles: the energies of the tile's 256 target rows, their softmax, and the
  attentional state. Each lemma says that what a case leaves in one of those buffers is the body's arithmetic
  applied to the blocks it loaded — the two halves of the output weights being the loads of columns 0…1023 and
  1024…2047 of the weight block.
-/
import proofs.«165069_j21706764714809_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Case A's scratch: the projection of the encoder block. -/
theorem sout_A_0 (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x2048 .f32) (h6 : a6.IsWhole) (a7 : Memref sig .tc .vmem S1x256x1024 .f32) (h7 : a7.IsWhole) (a8 : Memref sig .tc .vmem S1x256x1024 .f32) (h8 : a8.IsWhole) (a9 : Memref sig .tc .vmem S1x256x1024 .f32) (h9 : a9.IsWhole) (a10 : Memref sig .tc .vmem S1024x1024 .f32) (h10 : a10.IsWhole) (hc : cond0_0 i) (x0 : Vec F S1x256x1024 .f32) (x1 : Vec F S1x1024x1024 .f32) (x2 : Vec F S1024x1024 .f32) (x3 : Vec F S1x1024 .f32) (x4 : Vec F S1024x2048 .f32) :
    sout0_A_0 c i a2 h2 a3 h3 a4 h4 a5 h5 a6 h6 a7 h7 a8 h8 a9 h9 a10 h10 hc x0 x1 x2 x3 x4 = k0_pay4 x1 x2 x3 := by
  unfold sout0_A_0
  rw [View.read_writes_eq_canon _ _ _ (scover0_A_0 c i a2 h2 a3 h3 a4 h4 a5 h5 a6 h6 a7 h7 a8 h8 a9 h9 a10 h10 hc x0 x1 x2 x3 x4)]
  unfold kernelRun0_A
  dsimp only
  sl_unfold_words
  rw [View.canon_unit_zero hz2]
  simp only [View.readAt_eq_ld, h2.read_unread, h3.read_unread, h4.read_unread, h5.read_unread, h6.read_unread, h10.read_unread, View.ld_unit_zero (S := S1x256x1024) hz3, View.ld_unit_zero (S := S1x1024x1024) hz3, View.ld_unit_zero (S := S1024x1024) hz2, View.ld_unit_zero (S := S1x1024) hz2, View.readCov_unit_zero (S := S1024x1024) _ hz2]

/-- Case A's energies tile. -/
theorem out_A_5 (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x2048 .f32) (h6 : a6.IsWhole) (a7 : Memref sig .tc .vmem S1x256x1024 .f32) (h7 : a7.IsWhole) (a8 : Memref sig .tc .vmem S1x256x1024 .f32) (h8 : a8.IsWhole) (a9 : Memref sig .tc .vmem S1x256x1024 .f32) (h9 : a9.IsWhole) (a10 : Memref sig .tc .vmem S1024x1024 .f32) (h10 : a10.IsWhole) (hc : cond0_0 i) (x0 : Vec F S1x256x1024 .f32) (x1 : Vec F S1x1024x1024 .f32) (x2 : Vec F S1024x1024 .f32) (x3 : Vec F S1x1024 .f32) (x4 : Vec F S1024x2048 .f32) :
    out0_A_5 c i a2 h2 a3 h3 a4 h4 a5 h5 a6 h6 a7 h7 a8 h8 a9 h9 a10 h10 hc x0 x1 x2 x3 x4 = k0_pay1 (k0_pay6 x0 (k0_pay4 x1 x2 x3)) := by
  unfold out0_A_5
  rw [View.read_writes_eq_canon _ _ _ (cover0_A_5 c i a2 h2 a3 h3 a4 h4 a5 h5 a6 h6 a7 h7 a8 h8 a9 h9 a10 h10 hc x0 x1 x2 x3 x4)]
  unfold kernelRun0_A
  dsimp only
  sl_unfold_words
  rw [View.canon_unit_zero hz3]
  simp only [View.readAt_eq_ld, h2.read_unread, h3.read_unread, h4.read_unread, h5.read_unread, h6.read_unread, h10.read_unread, View.ld_unit_zero (S := S1x256x1024) hz3, View.ld_unit_zero (S := S1x1024x1024) hz3, View.ld_unit_zero (S := S1024x1024) hz2, View.ld_unit_zero (S := S1x1024) hz2, View.readCov_unit_zero (S := S1024x1024) _ hz2]

/-- Case A's softmax tile. -/
theorem out_A_6 (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x2048 .f32) (h6 : a6.IsWhole) (a7 : Memref sig .tc .vmem S1x256x1024 .f32) (h7 : a7.IsWhole) (a8 : Memref sig .tc .vmem S1x256x1024 .f32) (h8 : a8.IsWhole) (a9 : Memref sig .tc .vmem S1x256x1024 .f32) (h9 : a9.IsWhole) (a10 : Memref sig .tc .vmem S1024x1024 .f32) (h10 : a10.IsWhole) (hc : cond0_0 i) (x0 : Vec F S1x256x1024 .f32) (x1 : Vec F S1x1024x1024 .f32) (x2 : Vec F S1024x1024 .f32) (x3 : Vec F S1x1024 .f32) (x4 : Vec F S1024x2048 .f32) :
    out0_A_6 c i a2 h2 a3 h3 a4 h4 a5 h5 a6 h6 a7 h7 a8 h8 a9 h9 a10 h10 hc x0 x1 x2 x3 x4 = k0_pay2 (k0_pay7 x0 (k0_pay4 x1 x2 x3)) := by
  unfold out0_A_6
  rw [View.read_writes_eq_canon _ _ _ (cover0_A_6 c i a2 h2 a3 h3 a4 h4 a5 h5 a6 h6 a7 h7 a8 h8 a9 h9 a10 h10 hc x0 x1 x2 x3 x4)]
  unfold kernelRun0_A
  dsimp only
  sl_unfold_words
  rw [View.canon_unit_zero hz3]
  simp only [View.readAt_eq_ld, h2.read_unread, h3.read_unread, h4.read_unread, h5.read_unread, h6.read_unread, h10.read_unread, View.ld_unit_zero (S := S1x256x1024) hz3, View.ld_unit_zero (S := S1x1024x1024) hz3, View.ld_unit_zero (S := S1024x1024) hz2, View.ld_unit_zero (S := S1x1024) hz2, View.readCov_unit_zero (S := S1024x1024) _ hz2]

/-- Case A's attentional-state tile. -/
theorem out_A_7 (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x2048 .f32) (h6 : a6.IsWhole) (a7 : Memref sig .tc .vmem S1x256x1024 .f32) (h7 : a7.IsWhole) (a8 : Memref sig .tc .vmem S1x256x1024 .f32) (h8 : a8.IsWhole) (a9 : Memref sig .tc .vmem S1x256x1024 .f32) (h9 : a9.IsWhole) (a10 : Memref sig .tc .vmem S1024x1024 .f32) (h10 : a10.IsWhole) (hc : cond0_0 i) (x0 : Vec F S1x256x1024 .f32) (x1 : Vec F S1x1024x1024 .f32) (x2 : Vec F S1024x1024 .f32) (x3 : Vec F S1x1024 .f32) (x4 : Vec F S1024x2048 .f32) :
    out0_A_7 c i a2 h2 a3 h3 a4 h4 a5 h5 a6 h6 a7 h7 a8 h8 a9 h9 a10 h10 hc x0 x1 x2 x3 x4 = k0_pay3 (k0_pay8 x0 (k0_pay4 x1 x2 x3) x1 (View.ld x4 (Rect.unit (s := S1024x2048) ![0, 0] S1024x1024.size inb_S1024x2048_S1024x1024_0_0)) (View.ld x4 (Rect.unit (s := S1024x2048) ![0, 1024] S1024x1024.size inb_S1024x2048_S1024x1024_0_1024))) := by
  unfold out0_A_7
  rw [View.read_writes_eq_canon _ _ _ (cover0_A_7 c i a2 h2 a3 h3 a4 h4 a5 h5 a6 h6 a7 h7 a8 h8 a9 h9 a10 h10 hc x0 x1 x2 x3 x4)]
  unfold kernelRun0_A
  dsimp only
  sl_unfold_words
  rw [View.canon_unit_zero hz3]
  simp only [View.readAt_eq_ld, h2.read_unread, h3.read_unread, h4.read_unread, h5.read_unread, h6.read_unread, h10.read_unread, View.ld_unit_zero (S := S1x256x1024) hz3, View.ld_unit_zero (S := S1x1024x1024) hz3, View.ld_unit_zero (S := S1024x1024) hz2, View.ld_unit_zero (S := S1x1024) hz2, View.readCov_unit_zero (S := S1024x1024) _ hz2]

/-- Case B's energies tile, against the scratch `xs` the point before left. -/
theorem out_B_5 (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x2048 .f32) (h6 : a6.IsWhole) (a7 : Memref sig .tc .vmem S1x256x1024 .f32) (h7 : a7.IsWhole) (a8 : Memref sig .tc .vmem S1x256x1024 .f32) (h8 : a8.IsWhole) (a9 : Memref sig .tc .vmem S1x256x1024 .f32) (h9 : a9.IsWhole) (a10 : Memref sig .tc .vmem S1024x1024 .f32) (h10 : a10.IsWhole) (hc : ¬cond0_0 i) (x0 : Vec F S1x256x1024 .f32) (x1 : Vec F S1x1024x1024 .f32) (x2 : Vec F S1024x1024 .f32) (x3 : Vec F S1x1024 .f32) (x4 : Vec F S1024x2048 .f32) (xs : Vec F S1024x1024 .f32) :
    out0_B_5 c i a2 h2 a3 h3 a4 h4 a5 h5 a6 h6 a7 h7 a8 h8 a9 h9 a10 h10 hc x0 x1 x2 x3 x4 xs = k0_pay1 (k0_pay6 x0 xs) := by
  unfold out0_B_5
  rw [View.read_writes_eq_canon _ _ _ (cover0_B_5 c i a2 h2 a3 h3 a4 h4 a5 h5 a6 h6 a7 h7 a8 h8 a9 h9 a10 h10 hc x0 x1 x2 x3 x4 xs)]
  unfold kernelRun0_B
  dsimp only
  sl_unfold_words
  rw [View.canon_unit_zero hz3]
  simp only [View.readAt_eq_ld, h2.read_unread, h3.read_unread, h4.read_unread, h5.read_unread, h6.read_unread, h10.read_unread, View.ld_unit_zero (S := S1x256x1024) hz3, View.ld_unit_zero (S := S1x1024x1024) hz3, View.ld_unit_zero (S := S1024x1024) hz2, View.ld_unit_zero (S := S1x1024) hz2, View.readCov_unit_zero (S := S1024x1024) _ hz2]

/-- Case B's softmax tile. -/
theorem out_B_6 (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x2048 .f32) (h6 : a6.IsWhole) (a7 : Memref sig .tc .vmem S1x256x1024 .f32) (h7 : a7.IsWhole) (a8 : Memref sig .tc .vmem S1x256x1024 .f32) (h8 : a8.IsWhole) (a9 : Memref sig .tc .vmem S1x256x1024 .f32) (h9 : a9.IsWhole) (a10 : Memref sig .tc .vmem S1024x1024 .f32) (h10 : a10.IsWhole) (hc : ¬cond0_0 i) (x0 : Vec F S1x256x1024 .f32) (x1 : Vec F S1x1024x1024 .f32) (x2 : Vec F S1024x1024 .f32) (x3 : Vec F S1x1024 .f32) (x4 : Vec F S1024x2048 .f32) (xs : Vec F S1024x1024 .f32) :
    out0_B_6 c i a2 h2 a3 h3 a4 h4 a5 h5 a6 h6 a7 h7 a8 h8 a9 h9 a10 h10 hc x0 x1 x2 x3 x4 xs = k0_pay2 (k0_pay7 x0 xs) := by
  unfold out0_B_6
  rw [View.read_writes_eq_canon _ _ _ (cover0_B_6 c i a2 h2 a3 h3 a4 h4 a5 h5 a6 h6 a7 h7 a8 h8 a9 h9 a10 h10 hc x0 x1 x2 x3 x4 xs)]
  unfold kernelRun0_B
  dsimp only
  sl_unfold_words
  rw [View.canon_unit_zero hz3]
  simp only [View.readAt_eq_ld, h2.read_unread, h3.read_unread, h4.read_unread, h5.read_unread, h6.read_unread, h10.read_unread, View.ld_unit_zero (S := S1x256x1024) hz3, View.ld_unit_zero (S := S1x1024x1024) hz3, View.ld_unit_zero (S := S1024x1024) hz2, View.ld_unit_zero (S := S1x1024) hz2, View.readCov_unit_zero (S := S1024x1024) _ hz2]

/-- Case B's attentional-state tile. -/
theorem out_B_7 (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x2048 .f32) (h6 : a6.IsWhole) (a7 : Memref sig .tc .vmem S1x256x1024 .f32) (h7 : a7.IsWhole) (a8 : Memref sig .tc .vmem S1x256x1024 .f32) (h8 : a8.IsWhole) (a9 : Memref sig .tc .vmem S1x256x1024 .f32) (h9 : a9.IsWhole) (a10 : Memref sig .tc .vmem S1024x1024 .f32) (h10 : a10.IsWhole) (hc : ¬cond0_0 i) (x0 : Vec F S1x256x1024 .f32) (x1 : Vec F S1x1024x1024 .f32) (x2 : Vec F S1024x1024 .f32) (x3 : Vec F S1x1024 .f32) (x4 : Vec F S1024x2048 .f32) (xs : Vec F S1024x1024 .f32) :
    out0_B_7 c i a2 h2 a3 h3 a4 h4 a5 h5 a6 h6 a7 h7 a8 h8 a9 h9 a10 h10 hc x0 x1 x2 x3 x4 xs = k0_pay3 (k0_pay8 x0 xs x1 (View.ld x4 (Rect.unit (s := S1024x2048) ![0, 0] S1024x1024.size inb_S1024x2048_S1024x1024_0_0)) (View.ld x4 (Rect.unit (s := S1024x2048) ![0, 1024] S1024x1024.size inb_S1024x2048_S1024x1024_0_1024))) := by
  unfold out0_B_7
  rw [View.read_writes_eq_canon _ _ _ (cover0_B_7 c i a2 h2 a3 h3 a4 h4 a5 h5 a6 h6 a7 h7 a8 h8 a9 h9 a10 h10 hc x0 x1 x2 x3 x4 xs)]
  unfold kernelRun0_B
  dsimp only
  sl_unfold_words
  rw [View.canon_unit_zero hz3]
  simp only [View.readAt_eq_ld, h2.read_unread, h3.read_unread, h4.read_unread, h5.read_unread, h6.read_unread, h10.read_unread, View.ld_unit_zero (S := S1x256x1024) hz3, View.ld_unit_zero (S := S1x1024x1024) hz3, View.ld_unit_zero (S := S1024x1024) hz2, View.ld_unit_zero (S := S1x1024) hz2, View.readCov_unit_zero (S := S1024x1024) _ hz2]

end Cert.KernelIdeal.Pieces

end
-- ==== Proof.AttnTile.lean ====
/-
  One tile of each result, as the attention layer's entries.

  A grid point works on a tile of 256 target rows of one batch: rows `256·q + r` of batch `b`. Given that the
  blocks it loads are the corresponding pieces of the argument arrays (`hx0`: the state tile; `hx1`: the batch's
  encoder block; `hwc`, `hwh`: the two halves of the output weights) and that the scratch holds the batch's
  projection (`hP`), the three tiles the body stores are those rows of the energies, of the softmax weights and
  of the attentional state.
-/
import proofs.«165069_j21706764714809_2_alg».proof.Proof.AttnSpec
import proofs.«165069_j21706764714809_2_alg».proof.Proof.AttnBody

noncomputable section

open Idealize.ShloMosaic Idealize.ShloMosaic.ValueIdx

namespace Cert.KernelIdeal.Tile

open Cert.KernelIdeal Cert.KernelIdeal.Gen

/-- Row `r` of tile `q`: target position `256·q + r`. -/
abbrev row (q : Fin 4) (r : Fin 256) : Fin 1024 := ⟨256 * q.val + r.val, by have := q.isLt; have := r.isLt; omega⟩

variable (hid enc : (⟨3, ![16, 1024, 1024]⟩ : Shape).Idx → EReal) (wa : (⟨2, ![1024, 1024]⟩ : Shape).Idx → EReal)
  (ba : (⟨1, ![1024]⟩ : Shape).Idx → EReal) (wo : (⟨2, ![1024, 2048]⟩ : Shape).Idx → EReal)
variable (x0 : FVec Ideal S1x256x1024 .f32) (P : FVec Ideal S1024x1024 .f32) (x1 : FVec Ideal S1x1024x1024 .f32)
  (wc wh : FVec Ideal S1024x1024 .f32) (b : Fin 16) (q : Fin 4)

/-- An energy of the tile. -/
theorem energy_eq (hx0 : ∀ (r : Fin 256) (d : Fin 1024), x0 (ix3 (0 : Fin 1) r d) = hid (ix3 b (row q r) d))
    (hP : ∀ s d : Fin 1024, P (ix2 s d) = Attn.proj enc wa ba b s d) (r : Fin 256) (s : Fin 1024) :
    k0_pay6 (F := Ideal) x0 P (ix2 r s) = Attn.energy hid enc wa ba b (row q r) s := by
  refine (Body.energy_apply x0 P r s).trans ?_
  unfold Attn.energy
  exact Finset.sum_congr rfl fun d _ => congrArg₂ (· * ·) (hx0 r d) (hP s d)

/-- A softmax weight of the tile. -/
theorem weight_eq (hx0 : ∀ (r : Fin 256) (d : Fin 1024), x0 (ix3 (0 : Fin 1) r d) = hid (ix3 b (row q r) d))
    (hP : ∀ s d : Fin 1024, P (ix2 s d) = Attn.proj enc wa ba b s d) (r : Fin 256) (s : Fin 1024) :
    k0_pay7 (F := Ideal) x0 P (ix2 r s) = Attn.weight hid enc wa ba b (row q r) s := by
  refine (Body.weight_apply x0 P r s).trans ?_
  have hE : (fun s' : Fin 1024 => k0_pay6 (F := Ideal) x0 P (ix2 r s')) = fun s' => Attn.energy hid enc wa ba b (row q r) s' :=
    funext fun s' => energy_eq hid enc wa ba x0 P b q hx0 hP r s'
  unfold Attn.weight Attn.expo Attn.rowMax
  simp only [energy_eq hid enc wa ba x0 P b q hx0 hP]

/-- An entry of the attentional state of the tile. -/
theorem htilde_eq (hx0 : ∀ (r : Fin 256) (d : Fin 1024), x0 (ix3 (0 : Fin 1) r d) = hid (ix3 b (row q r) d))
    (hP : ∀ s d : Fin 1024, P (ix2 s d) = Attn.proj enc wa ba b s d)
    (hx1 : ∀ s e : Fin 1024, x1 (ix3 (0 : Fin 1) s e) = enc (ix3 b s e))
    (hwc : ∀ d e : Fin 1024, wc (ix2 d e) = wo (ix2 d (Attn.lo e)))
    (hwh : ∀ d e : Fin 1024, wh (ix2 d e) = wo (ix2 d (Attn.hi e))) (r : Fin 256) (d : Fin 1024) :
    k0_pay8 (F := Ideal) x0 P x1 wc wh (ix2 r d) = Attn.htilde hid enc wa ba wo b (row q r) d := by
  refine (Body.htilde_apply x0 P x1 wc wh r d).trans ?_
  unfold Attn.htilde Attn.hlin Attn.context
  refine congrArg Ideal.tanh (congrArg₂ (· + ·) (Finset.sum_congr rfl fun e _ => ?_) (Finset.sum_congr rfl fun e _ => ?_))
  · refine congrArg₂ (· * ·) (Finset.sum_congr rfl fun s _ => ?_) (hwc d e)
    exact congrArg₂ (· * ·) (weight_eq hid enc wa ba x0 P b q hx0 hP r s) (hx1 s e)
  · exact congrArg₂ (· * ·) (hx0 r e) (hwh d e)

/-! ## The stored tiles: the same, with the leading unit axis the staging buffers carry -/

theorem stored_energy (v : FVec Ideal S256x1024 .f32) (u : Fin 1) (r : Fin 256) (s : Fin 1024) :
    k0_pay1 (F := Ideal) v (ix3 u r s) = v (ix2 r s) := by
  unfold k0_pay1
  exact shapeCast_ab_1ab_apply _ _ u r s

theorem stored_weight (v : FVec Ideal S256x1024 .f32) (u : Fin 1) (r : Fin 256) (s : Fin 1024) :
    k0_pay2 (F := Ideal) v (ix3 u r s) = v (ix2 r s) := by
  unfold k0_pay2
  exact shapeCast_ab_1ab_apply _ _ u r s

theorem stored_htilde (v : FVec Ideal S256x1024 .f32) (u : Fin 1) (r : Fin 256) (s : Fin 1024) :
    k0_pay3 (F := Ideal) v (ix3 u r s) = v (ix2 r s) := by
  unfold k0_pay3
  exact shapeCast_ab_1ab_apply _ _ u r s

end Cert.KernelIdeal.Tile

end
-- ==== Proof.AttnBlocks.lean ====
/-
  From the tiles to the arrays: what the three result arrays hold after the kernel's run.

  The grid has 64 points, point `t` working on batch `t / 4` and on the tile `t % 4` of 256 target rows. The
  state tile, the batch's encoder block, the projection weights, the bias row (the bias vector reshaped to one row
  by the host before the launch) and the output weights are read off the argument arrays at those block indices.
  The scratch is written at the first point of each batch and only read at the other three, so after every point
  it holds the projection of that point's batch (`scratch_eq`, by induction on the point: a point with
  `t % 4 = 0` stores the projection of its own batch's encoder block; any other point leaves the scratch as the
  point before left it, and that point is of the same batch). Hence every point writes back the rows
  `256·(t % 4) + r` of batch `t / 4` of the energies, the softmax weights and the attentional state; the 64
  blocks tile each result array (the point that covers entry `(b, p, _)` is `4·b + p / 256`), so each array ends
  holding the whole result.
-/
import proofs.«165069_j21706764714809_2_alg».proof.Proof.Gen.KernelIdeal.Value
import proofs.«165069_j21706764714809_2_alg».proof.Proof.AttnSpec
import proofs.«165069_j21706764714809_2_alg».proof.Proof.AttnBody
import proofs.«165069_j21706764714809_2_alg».proof.Proof.AttnPieces
import proofs.«165069_j21706764714809_2_alg».proof.Proof.AttnTile
import Idealize.ShloMosaic.Lib.Pipeline.Value
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.AttnValue

open Cert.KernelIdeal Cert.KernelIdeal.Gen

variable (m : (ℓ : Loc nD τ sig) → Buf (Elt Ideal) ℓ) (ρ : Dev nD → PrngReg)

/-! ## The argument arrays, and the points' coordinates -/

abbrev aH (c : Dev nD) : (⟨3, ![16, 1024, 1024]⟩ : Shape).Idx → EReal := m ((c : Thread nD τ).loc main_arg0)
abbrev aE (c : Dev nD) : (⟨3, ![16, 1024, 1024]⟩ : Shape).Idx → EReal := m ((c : Thread nD τ).loc main_arg1)
abbrev aWA (c : Dev nD) : (⟨2, ![1024, 1024]⟩ : Shape).Idx → EReal := m ((c : Thread nD τ).loc main_arg2)
abbrev aB (c : Dev nD) : (⟨1, ![1024]⟩ : Shape).Idx → EReal := m ((c : Thread nD τ).loc main_arg3)
abbrev aWO (c : Dev nD) : (⟨2, ![1024, 2048]⟩ : Shape).Idx → EReal := m ((c : Thread nD τ).loc main_arg4)

/-- The batch point `n` works on. -/
abbrev batchOf (n : ℕ) (h : n < cfg0.N) : Fin 16 := ⟨n / 4, by have hN : cfg0.N = 64 := N_0; omega⟩
/-- The tile of target rows point `n` works on. -/
abbrev tileOf (n : ℕ) : Fin 4 := ⟨n % 4, Nat.mod_lt _ (by decide)⟩

/-- The printed index maps, decided over the 64 points: the state and the three results move with (batch, tile), the
    encoder block with the batch, the weights and the bias stay. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 4 ∧ win0_5.index t (1 : Fin 3) = t.val % 4 ∧ win0_5.index t (2 : Fin 3) = 0)
    ∧ (win0_6.index t (0 : Fin 3) = t.val / 4 ∧ win0_6.index t (1 : Fin 3) = t.val % 4 ∧ win0_6.index t (2 : Fin 3) = 0)
    ∧ (win0_7.index t (0 : Fin 3) = t.val / 4 ∧ win0_7.index t (1 : Fin 3) = t.val % 4 ∧ win0_7.index t (2 : Fin 3) = 0) :=
  (by decide +kernel : ∀ t : Fin grid0.N, _)

/-! ## The input blocks, read off the argument arrays -/

/-- The state tile of point `t`. -/
theorem blk_hid (c : Dev nD) (t : Fin cfg0.N) (r : Fin 256) (d : Fin 1024) :
    (iblk m c 0 t : FVec Ideal S1x256x1024 .f32) (ix3 (0 : Fin 1) r d)
      = aH m c (ix3 (batchOf t.val t.isLt) (Tile.row (tileOf t.val) r) d) := by
  obtain ⟨⟨e0, e1, e2⟩, -⟩ := idx_facts t
  show V m c main_arg0 (((cfg0.win 0).blk t).view.emb (ix3 (0 : Fin 1) r d)) = _
  rw [V_main_arg0]
  refine congrArg (m ((c : Thread nD τ).loc main_arg0)) (funext fun a => Fin.ext ?_)
  match a with
  | ⟨0, _⟩ => show win0_0.index t (0 : Fin 3) * 1 + 1 * 0 = t.val / 4; omega
  | ⟨1, _⟩ => show win0_0.index t (1 : Fin 3) * 256 + 1 * r.val = 256 * (t.val % 4) + r.val; omega
  | ⟨2, _⟩ => show win0_0.index t (2 : Fin 3) * 1024 + 1 * d.val = d.val; omega

/-- The encoder block of point `t`'s batch. -/
theorem blk_enc (c : Dev nD) (t : Fin cfg0.N) (s e : Fin 1024) :
    (iblk m c 1 t : FVec Ideal S1x1024x1024 .f32) (ix3 (0 : Fin 1) s e) = aE m c (ix3 (batchOf t.val t.isLt) s e) := by
  obtain ⟨-, ⟨e0, e1, e2⟩, -⟩ := idx_facts t
  show V m c main_arg1 (((cfg0.win 1).blk t).view.emb (ix3 (0 : Fin 1) s e)) = _
  rw [V_main_arg1]
  refine congrArg (m ((c : Thread nD τ).loc main_arg1)) (funext fun a => Fin.ext ?_)
  match a with
  | ⟨0, _⟩ => show win0_1.index t (0 : Fin 3) * 1 + 1 * 0 = t.val / 4; omega
  | ⟨1, _⟩ => show win0_1.index t (1 : Fin 3) * 1024 + 1 * s.val = s.val; omega
  | ⟨2, _⟩ => show win0_1.index t (2 : Fin 3) * 1024 + 1 * e.val = e.val; omega

/-- The projection weights. -/
theorem blk_wa (c : Dev nD) (t : Fin cfg0.N) (d e : Fin 1024) :
    (iblk m c 2 t : FVec Ideal S1024x1024 .f32) (ix2 d e) = aWA m c (ix2 d e) := by
  obtain ⟨-, -, ⟨e0, e1⟩, -⟩ := idx_facts t
  show V m c main_arg2 (((cfg0.win 2).blk t).view.emb (ix2 d e)) = _
  rw [V_main_arg2]
  refine congrArg (m ((c : Thread nD τ).loc main_arg2)) (funext fun a => Fin.ext ?_)
  match a with
  | ⟨0, _⟩ => show win0_2.index t (0 : Fin 2) * 1024 + 1 * d.val = d.val; omega
  | ⟨1, _⟩ => show win0_2.index t (1 : Fin 2) * 1024 + 1 * e.val = e.val; omega

/-- The bias row is the bias vector: the host reshapes it to one row before the launch. -/
theorem bias_row (c : Dev nD) :
    (V m c main_v0 : S1x1024.Idx → EReal) = shapeCast S1x1024 (m ((c : Thread nD τ).loc main_arg3)) shapeCasts_S1024_S1x1024 := by
  dsimp only [V, hostOps0]
  after_results
  rfl

theorem blk_bias (c : Dev nD) (t : Fin cfg0.N) (d : Fin 1024) :
    (iblk m c 3 t : FVec Ideal S1x1024 .f32) (ix2 (0 : Fin 1) d) = aB m c (ix1 d) := by
  obtain ⟨-, -, -, ⟨e0, e1⟩, -⟩ := idx_facts t
  show V m c main_v0 (((cfg0.win 3).blk t).view.emb (ix2 (0 : Fin 1) d)) = _
  have hi : ((cfg0.win 3).blk t).view.emb (ix2 (0 : Fin 1) d) = ix2 (0 : Fin 1) d := funext fun a => Fin.ext (by
    match a with
    | ⟨0, _⟩ => show win0_3.index t (0 : Fin 2) * 1 + 1 * 0 = 0; omega
    | ⟨1, _⟩ => show win0_3.index t (1 : Fin 2) * 1024 + 1 * d.val = d.val; omega)
  rw [hi, bias_row]
  exact shapeCast_a_1a_apply _ _ (0 : Fin 1) d

/-- The two halves of the output weights, as the body loads them from the weight block. -/
theorem blk_wo_lo (c : Dev nD) (t : Fin cfg0.N) (d e : Fin 1024) :
    View.ld (iblk m c 4 t : FVec Ideal S1024x2048 .f32) (Rect.unit (s := S1024x2048) ![0, 0] S1024x1024.size inb_S1024x2048_S1024x1024_0_0) (ix2 d e)
      = aWO m c (ix2 d (Attn.lo e)) := by
  obtain ⟨-, -, -, -, ⟨e0, e1⟩, -⟩ := idx_facts t
  show V m c main_arg4 (((cfg0.win 4).blk t).view.emb _) = _
  rw [V_main_arg4]
  refine congrArg (m ((c : Thread nD τ).loc main_arg4)) (funext fun a => Fin.ext ?_)
  match a with
  | ⟨0, _⟩ => show win0_4.index t (0 : Fin 2) * 1024 + 1 * (0 + 1 * d.val) = d.val; omega
  | ⟨1, _⟩ => show win0_4.index t (1 : Fin 2) * 2048 + 1 * (0 + 1 * e.val) = e.val; omega

theorem blk_wo_hi (c : Dev nD) (t : Fin cfg0.N) (d e : Fin 1024) :
    View.ld (iblk m c 4 t : FVec Ideal S1024x2048 .f32) (Rect.unit (s := S1024x2048) ![0, 1024] S1024x1024.size inb_S1024x2048_S1024x1024_0_1024) (ix2 d e)
      = aWO m c (ix2 d (Attn.hi e)) := by
  obtain ⟨-, -, -, -, ⟨e0, e1⟩, -⟩ := idx_facts t
  show V m c main_arg4 (((cfg0.win 4).blk t).view.emb _) = _
  rw [V_main_arg4]
  refine congrArg (m ((c : Thread nD τ).loc main_arg4)) (funext fun a => Fin.ext ?_)
  match a with
  | ⟨0, _⟩ => show win0_4.index t (0 : Fin 2) * 1024 + 1 * (0 + 1 * d.val) = d.val; omega
  | ⟨1, _⟩ => show win0_4.index t (1 : Fin 2) * 2048 + 1 * (1024 + 1 * e.val) = 1024 + e.val; omega

/-! ## The scratch: after every point it holds the projection of that point's batch -/

/-- The projection of batch `b`, as a 1024 × 1024 block. -/
def projBlock (c : Dev nD) (b : Fin 16) : FVec Ideal S1024x1024 .f32 :=
  fun j => Attn.proj (aE m c) (aWA m c) (aB m c) b (j 0) (j 1)

theorem projBlock_apply (c : Dev nD) (b : Fin 16) (s d : Fin 1024) :
    projBlock m c b (ix2 s d) = Attn.proj (aE m c) (aWA m c) (aB m c) b s d := rfl

/-- What the first point of a batch stores: the projection of its own encoder block. -/
theorem stored_proj (c : Dev nD) (t : Fin cfg0.N) :
    k0_pay4 (F := Ideal) (iblk m c 1 t) (iblk m c 2 t) (iblk m c 3 t) = projBlock m c (batchOf t.val t.isLt) := by
  funext j
  obtain ⟨s, d, rfl⟩ : ∃ (s d : Fin 1024), j = ix2 s d := ⟨j 0, j 1, eq_ix2 j⟩
  refine (Body.proj_apply (iblk m c 1 t) (iblk m c 2 t) (iblk m c 3 t) s d).trans ?_
  rw [projBlock_apply]
  unfold Attn.proj
  exact congrArg₂ (· + ·) (Finset.sum_congr rfl fun e _ => congrArg₂ (· * ·) (blk_enc m c t s e) (blk_wa m c t d e)) (blk_bias m c t d)

/-- One point's step: a point with `t % 4 = 0` stores the projection of its own batch; any other point leaves what the
    point before, of the same batch, left. -/
theorem scratch_step (c : Dev nD) (t : Fin cfg0.N)
    (ih : ∀ (h' : t.val - 1 < cfg0.N), ¬t.val % 4 = 0 →
      (outsAt0 m c (t.val - 1) h').2.2.2 = projBlock m c (batchOf (t.val - 1) h')) :
    (outsAt0 m c t.val t.isLt).2.2.2 = projBlock m c (batchOf t.val t.isLt) := by
  by_cases h0 : t.val % 4 = 0
  · rw [outsAt0_A m c t h0]
    dsimp only
    exact (Pieces.sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)).trans (stored_proj m c t)
  · rw [outsAt0_B m c t h0]
    dsimp only
    unfold sout0_B_0
    refine (ih _ h0).trans (congrArg (projBlock m c) (Fin.ext ?_))
    show (t.val - 1) / 4 = t.val / 4
    omega

theorem scratch_eq (c : Dev nD) (n : ℕ) : ∀ (h : n < cfg0.N), (outsAt0 m c n h).2.2.2 = projBlock m c (batchOf n h) := by
  induction n using Nat.strong_induction_on with
  | _ n ih =>
    intro h
    exact scratch_step m c ⟨n, h⟩ (fun h' hne => ih (n - 1) (by have : ¬n % 4 = 0 := hne; omega) h')

/-- The scratch as a point that does not start a batch reads it. -/
theorem scratch_prev (c : Dev nD) (t : Fin cfg0.N) (h0 : ¬t.val % 4 = 0) :
    (outsAt0 m c (t.val - 1) (Nat.lt_of_le_of_lt (Nat.sub_le _ _) t.isLt)).2.2.2 = projBlock m c (batchOf t.val t.isLt) := by
  refine (scratch_eq m c (t.val - 1) _).trans (congrArg (projBlock m c) (Fin.ext ?_))
  show (t.val - 1) / 4 = t.val / 4
  omega

/-! ## What each point writes back -/

/-- The hypotheses of the tile lemmas at point `t`. -/
theorem h_hid (c : Dev nD) (t : Fin cfg0.N) : ∀ (r : Fin 256) (d : Fin 1024),
    (iblk m c 0 t : FVec Ideal S1x256x1024 .f32) (ix3 (0 : Fin 1) r d) = aH m c (ix3 (batchOf t.val t.isLt) (Tile.row (tileOf t.val) r) d) :=
  fun r d => blk_hid m c t r d

theorem h_proj (c : Dev nD) (b : Fin 16) : ∀ s d : Fin 1024, projBlock m c b (ix2 s d) = Attn.proj (aE m c) (aWA m c) (aB m c) b s d :=
  fun s d => rfl

/-- The energies block point `t` leaves, whichever case it runs: the body's arithmetic on its blocks and on the
    projection of its batch. -/
theorem left5 (c : Dev nD) (t : Fin cfg0.N) :
    (dats m 0 c).flushed 5 t = (cfg0.win 5).cut (grid0.coords t) (k0_pay1 (F := Ideal) (k0_pay6 (F := Ideal) (iblk m c 0 t) (projBlock m c (batchOf t.val t.isLt)))) := by
  by_cases h0 : t.val % 4 = 0
  · refine (Value.flushed5_A m c t h0).trans (congrArg ((cfg0.win 5).cut (grid0.coords t)) ?_)
    refine (Pieces.out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)).trans ?_
    rw [stored_proj m c t]
  · refine (Value.flushed5_B m c t h0).trans (congrArg ((cfg0.win 5).cut (grid0.coords t)) ?_)
    refine (Pieces.out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) _).trans ?_
    rw [scratch_prev m c t h0]

/-- What point `t` writes back is block `t` of the energies. -/
theorem flushed5_eq (c : Dev nD) (t : Fin cfg0.N) :
    (dats m 0 c).flushed 5 t = ((cfg0.win 5).blk t).view.read (Elt Ideal) (Attn.energies (aH m c) (aE m c) (aWA m c) (aB m c)) := by
  rw [left5]
  obtain ⟨-, -, -, -, -, ⟨e0, e1, e2⟩, -⟩ := idx_facts t
  funext j
  obtain ⟨u, r, s, rfl⟩ : ∃ (u : Fin 1) (r : Fin 256) (s : Fin 1024), j = ix3 u r s := ⟨j 0, j 1, j 2, eq_ix3 j⟩
  show k0_pay1 (F := Ideal) (k0_pay6 (F := Ideal) (iblk m c 0 t) (projBlock m c (batchOf t.val t.isLt))) (ix3 u r s) = (Attn.energies (aH m c) (aE m c) (aWA m c) (aB m c)) (((cfg0.win 5).blk t).view.emb (ix3 u r s))
  refine (Tile.stored_energy _ u r s).trans ?_
  refine (Tile.energy_eq (aH m c) (aE m c) (aWA m c) (aB m c) (iblk m c 0 t) (projBlock m c (batchOf t.val t.isLt)) (batchOf t.val t.isLt) (tileOf t.val) (h_hid m c t) (h_proj m c _) r s).trans ?_
  have hi : ((cfg0.win 5).blk t).view.emb (ix3 u r s) = ix3 (batchOf t.val t.isLt) (Tile.row (tileOf t.val) r) s := funext fun a => Fin.ext (by
    match a with
    | ⟨0, _⟩ => show win0_5.index t (0 : Fin 3) * 1 + 1 * u.val = t.val / 4; have := u.isLt; omega
    | ⟨1, _⟩ => show win0_5.index t (1 : Fin 3) * 256 + 1 * r.val = 256 * (t.val % 4) + r.val; omega
    | ⟨2, _⟩ => show win0_5.index t (2 : Fin 3) * 1024 + 1 * s.val = s.val; omega)
  rw [hi]
  rfl

/-- Every entry `(b, p, _)` of the array is in the block of point `4·b + p / 256`. -/
theorem cover5 (c : Dev nD) (i : S16x1024x1024.Idx) :
    ∃ t : Fin cfg0.N, (cfg0.win 5).flush t = true ∧ i ∈ ((cfg0.win 5).blk t).view.set := by
  have hN : cfg0.N = 64 := N_0
  have h0 : (i 0).val < 16 := (i 0).isLt
  have h1 : (i 1).val < 1024 := (i 1).isLt
  have h2 : (i 2).val < 1024 := (i 2).isLt
  obtain ⟨t, tv⟩ : ∃ t : Fin cfg0.N, t.val = 4 * (i 0).val + (i 1).val / 256 := ⟨⟨4 * (i 0).val + (i 1).val / 256, by omega⟩, rfl⟩
  obtain ⟨-, -, -, -, -, ⟨e0, e1, e2⟩, -⟩ := idx_facts t
  refine ⟨t, flush0_5 t, ?_⟩
  show i ∈ ((View.whole main_v1_0).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-- So the array ends holding the energies. -/
theorem final5 (c : Dev nD) : (dats m 0 c).arrAt 5 cfg0.N = (Attn.energies (aH m c) (aE m c) (aWA m c) (aB m c)) :=
  (dats m 0 c).arrAt_eq_of_cover 5 (Attn.energies (aH m c) (aE m c) (aWA m c) (aB m c)) (fun t _ => flushed5_eq m c t) (cover5 c)

/-- The softmax weights block point `t` leaves, whichever case it runs: the body's arithmetic on its blocks and on the
    projection of its batch. -/
theorem left6 (c : Dev nD) (t : Fin cfg0.N) :
    (dats m 0 c).flushed 6 t = (cfg0.win 6).cut (grid0.coords t) (k0_pay2 (F := Ideal) (k0_pay7 (F := Ideal) (iblk m c 0 t) (projBlock m c (batchOf t.val t.isLt)))) := by
  by_cases h0 : t.val % 4 = 0
  · refine (Value.flushed6_A m c t h0).trans (congrArg ((cfg0.win 6).cut (grid0.coords t)) ?_)
    refine (Pieces.out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)).trans ?_
    rw [stored_proj m c t]
  · refine (Value.flushed6_B m c t h0).trans (congrArg ((cfg0.win 6).cut (grid0.coords t)) ?_)
    refine (Pieces.out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) _).trans ?_
    rw [scratch_prev m c t h0]

/-- What point `t` writes back is block `t` of the softmax weights. -/
theorem flushed6_eq (c : Dev nD) (t : Fin cfg0.N) :
    (dats m 0 c).flushed 6 t = ((cfg0.win 6).blk t).view.read (Elt Ideal) (Attn.weights (aH m c) (aE m c) (aWA m c) (aB m c)) := by
  rw [left6]
  obtain ⟨-, -, -, -, -, -, ⟨e0, e1, e2⟩, -⟩ := idx_facts t
  funext j
  obtain ⟨u, r, s, rfl⟩ : ∃ (u : Fin 1) (r : Fin 256) (s : Fin 1024), j = ix3 u r s := ⟨j 0, j 1, j 2, eq_ix3 j⟩
  show k0_pay2 (F := Ideal) (k0_pay7 (F := Ideal) (iblk m c 0 t) (projBlock m c (batchOf t.val t.isLt))) (ix3 u r s) = (Attn.weights (aH m c) (aE m c) (aWA m c) (aB m c)) (((cfg0.win 6).blk t).view.emb (ix3 u r s))
  refine (Tile.stored_weight _ u r s).trans ?_
  refine (Tile.weight_eq (aH m c) (aE m c) (aWA m c) (aB m c) (iblk m c 0 t) (projBlock m c (batchOf t.val t.isLt)) (batchOf t.val t.isLt) (tileOf t.val) (h_hid m c t) (h_proj m c _) r s).trans ?_
  have hi : ((cfg0.win 6).blk t).view.emb (ix3 u r s) = ix3 (batchOf t.val t.isLt) (Tile.row (tileOf t.val) r) s := funext fun a => Fin.ext (by
    match a with
    | ⟨0, _⟩ => show win0_6.index t (0 : Fin 3) * 1 + 1 * u.val = t.val / 4; have := u.isLt; omega
    | ⟨1, _⟩ => show win0_6.index t (1 : Fin 3) * 256 + 1 * r.val = 256 * (t.val % 4) + r.val; omega
    | ⟨2, _⟩ => show win0_6.index t (2 : Fin 3) * 1024 + 1 * s.val = s.val; omega)
  rw [hi]
  rfl

/-- Every entry `(b, p, _)` of the array is in the block of point `4·b + p / 256`. -/
theorem cover6 (c : Dev nD) (i : S16x1024x1024.Idx) :
    ∃ t : Fin cfg0.N, (cfg0.win 6).flush t = true ∧ i ∈ ((cfg0.win 6).blk t).view.set := by
  have hN : cfg0.N = 64 := N_0
  have h0 : (i 0).val < 16 := (i 0).isLt
  have h1 : (i 1).val < 1024 := (i 1).isLt
  have h2 : (i 2).val < 1024 := (i 2).isLt
  obtain ⟨t, tv⟩ : ∃ t : Fin cfg0.N, t.val = 4 * (i 0).val + (i 1).val / 256 := ⟨⟨4 * (i 0).val + (i 1).val / 256, by omega⟩, rfl⟩
  obtain ⟨-, -, -, -, -, -, ⟨e0, e1, e2⟩, -⟩ := idx_facts t
  refine ⟨t, flush0_6 t, ?_⟩
  show i ∈ ((View.whole main_v1_1).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 1024 ≤ (i 2).val ∧ (i 2).val < win0_6.index t (2 : Fin 3) * 1024 + 1024; omega

/-- So the array ends holding the softmax weights. -/
theorem final6 (c : Dev nD) : (dats m 0 c).arrAt 6 cfg0.N = (Attn.weights (aH m c) (aE m c) (aWA m c) (aB m c)) :=
  (dats m 0 c).arrAt_eq_of_cover 6 (Attn.weights (aH m c) (aE m c) (aWA m c) (aB m c)) (fun t _ => flushed6_eq m c t) (cover6 c)

/-- The attentional state block point `t` leaves, whichever case it runs: the body's arithmetic on its blocks and on the
    projection of its batch. -/
theorem left7 (c : Dev nD) (t : Fin cfg0.N) :
    (dats m 0 c).flushed 7 t = (cfg0.win 7).cut (grid0.coords t) (k0_pay3 (F := Ideal) (k0_pay8 (F := Ideal) (iblk m c 0 t) (projBlock m c (batchOf t.val t.isLt)) (iblk m c 1 t) (View.ld (iblk m c 4 t : FVec Ideal S1024x2048 .f32) (Rect.unit (s := S1024x2048) ![0, 0] S1024x1024.size inb_S1024x2048_S1024x1024_0_0)) (View.ld (iblk m c 4 t : FVec Ideal S1024x2048 .f32) (Rect.unit (s := S1024x2048) ![0, 1024] S1024x1024.size inb_S1024x2048_S1024x1024_0_1024)))) := by
  by_cases h0 : t.val % 4 = 0
  · refine (Value.flushed7_A m c t h0).trans (congrArg ((cfg0.win 7).cut (grid0.coords t)) ?_)
    refine (Pieces.out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)).trans ?_
    rw [stored_proj m c t]
    rfl
  · refine (Value.flushed7_B m c t h0).trans (congrArg ((cfg0.win 7).cut (grid0.coords t)) ?_)
    refine (Pieces.out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) _).trans ?_
    rw [scratch_prev m c t h0]
    rfl

/-- What point `t` writes back is block `t` of the attentional state. -/
theorem flushed7_eq (c : Dev nD) (t : Fin cfg0.N) :
    (dats m 0 c).flushed 7 t = ((cfg0.win 7).blk t).view.read (Elt Ideal) (Attn.htildes (aH m c) (aE m c) (aWA m c) (aB m c) (aWO m c)) := by
  rw [left7]
  obtain ⟨-, -, -, -, -, -, -, ⟨e0, e1, e2⟩⟩ := idx_facts t
  funext j
  obtain ⟨u, r, s, rfl⟩ : ∃ (u : Fin 1) (r : Fin 256) (s : Fin 1024), j = ix3 u r s := ⟨j 0, j 1, j 2, eq_ix3 j⟩
  show k0_pay3 (F := Ideal) (k0_pay8 (F := Ideal) (iblk m c 0 t) (projBlock m c (batchOf t.val t.isLt)) (iblk m c 1 t) (View.ld (iblk m c 4 t : FVec Ideal S1024x2048 .f32) (Rect.unit (s := S1024x2048) ![0, 0] S1024x1024.size inb_S1024x2048_S1024x1024_0_0)) (View.ld (iblk m c 4 t : FVec Ideal S1024x2048 .f32) (Rect.unit (s := S1024x2048) ![0, 1024] S1024x1024.size inb_S1024x2048_S1024x1024_0_1024))) (ix3 u r s) = (Attn.htildes (aH m c) (aE m c) (aWA m c) (aB m c) (aWO m c)) (((cfg0.win 7).blk t).view.emb (ix3 u r s))
  refine (Tile.stored_htilde _ u r s).trans ?_
  refine (Tile.htilde_eq (aH m c) (aE m c) (aWA m c) (aB m c) (aWO m c) (iblk m c 0 t) (projBlock m c (batchOf t.val t.isLt)) (iblk m c 1 t) (View.ld (iblk m c 4 t : FVec Ideal S1024x2048 .f32) (Rect.unit (s := S1024x2048) ![0, 0] S1024x1024.size inb_S1024x2048_S1024x1024_0_0)) (View.ld (iblk m c 4 t : FVec Ideal S1024x2048 .f32) (Rect.unit (s := S1024x2048) ![0, 1024] S1024x1024.size inb_S1024x2048_S1024x1024_0_1024)) (batchOf t.val t.isLt) (tileOf t.val) (h_hid m c t) (h_proj m c _) (fun s e => blk_enc m c t s e) (fun d e => blk_wo_lo m c t d e) (fun d e => blk_wo_hi m c t d e) r s).trans ?_
  have hi : ((cfg0.win 7).blk t).view.emb (ix3 u r s) = ix3 (batchOf t.val t.isLt) (Tile.row (tileOf t.val) r) s := funext fun a => Fin.ext (by
    match a with
    | ⟨0, _⟩ => show win0_7.index t (0 : Fin 3) * 1 + 1 * u.val = t.val / 4; have := u.isLt; omega
    | ⟨1, _⟩ => show win0_7.index t (1 : Fin 3) * 256 + 1 * r.val = 256 * (t.val % 4) + r.val; omega
    | ⟨2, _⟩ => show win0_7.index t (2 : Fin 3) * 1024 + 1 * s.val = s.val; omega)
  rw [hi]
  rfl

/-- Every entry `(b, p, _)` of the array is in the block of point `4·b + p / 256`. -/
theorem cover7 (c : Dev nD) (i : S16x1024x1024.Idx) :
    ∃ t : Fin cfg0.N, (cfg0.win 7).flush t = true ∧ i ∈ ((cfg0.win 7).blk t).view.set := by
  have hN : cfg0.N = 64 := N_0
  have h0 : (i 0).val < 16 := (i 0).isLt
  have h1 : (i 1).val < 1024 := (i 1).isLt
  have h2 : (i 2).val < 1024 := (i 2).isLt
  obtain ⟨t, tv⟩ : ∃ t : Fin cfg0.N, t.val = 4 * (i 0).val + (i 1).val / 256 := ⟨⟨4 * (i 0).val + (i 1).val / 256, by omega⟩, rfl⟩
  obtain ⟨-, -, -, -, -, -, -, ⟨e0, e1, e2⟩⟩ := idx_facts t
  refine ⟨t, flush0_7 t, ?_⟩
  show i ∈ ((View.whole main_v1_2).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 1024 ≤ (i 2).val ∧ (i 2).val < win0_7.index t (2 : Fin 3) * 1024 + 1024; omega

/-- So the array ends holding the attentional state. -/
theorem final7 (c : Dev nD) : (dats m 0 c).arrAt 7 cfg0.N = (Attn.htildes (aH m c) (aE m c) (aWA m c) (aB m c) (aWO m c)) :=
  (dats m 0 c).arrAt_eq_of_cover 7 (Attn.htildes (aH m c) (aE m c) (aWA m c) (aB m c) (aWO m c)) (fun t _ => flushed7_eq m c t) (cover7 c)

/-! ## The run, read -/

/-- Every weakly fair execution of the kernel's program ends with the three result arrays at the attention layer's
    attentional state, softmax weights and energies of the argument arrays, and the arguments unchanged. -/
theorem run : θ_run defs (onTc (τ := τ) (main (F := Ideal))) ⟨m, fun _ => 0, ρ⟩ fun r => ∀ c : Dev nD,
      r.2.mem ((c : Thread nD τ).loc main_v1_2) = Attn.htildes (aH m c) (aE m c) (aWA m c) (aB m c) (aWO m c)
      ∧ r.2.mem ((c : Thread nD τ).loc main_v1_1) = Attn.weights (aH m c) (aE m c) (aWA m c) (aB m c)
      ∧ r.2.mem ((c : Thread nD τ).loc main_v1_0) = Attn.energies (aH m c) (aE m c) (aWA m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).2.2.1.trans (final7 m c), (h c).2.1.trans (final6 m c), (h c).1.trans (final5 m c), (h c).2.2.2⟩)
    (Value.run_blocks m ρ)

end Cert.KernelIdeal.AttnValue

end
-- ==== Proof.lean ====
/-
  An attention layer with a "general" score, computed two ways, is one function of its arguments over the
  extended reals.

  Both programs take decoder states `hid` (16 × 1024 × 1024), encoder outputs `enc` (16 × 1024 × 1024), a score
  projection `wa` (1024 × 1024) with bias `ba` (1024) and an output projection `wo` (1024 × 2048), and return

    energies[b,t,s] = Σ_d hid[b,t,d] · (Σ_e enc[b,s,e] · wa[d,e] + ba[d]),
    weights[b,t,·]  = the softmax of energies[b,t,·],
    htilde[b,t,d]   = tanh (Σ_c concat(context, hid)[b,t,c] · wo[d,c]),   context[b,t,e] = Σ_s weights[b,t,s] · enc[b,s,e].

  The reference computes each line whole. The kernel walks a grid of 16 batches × 4 tiles of 256 target rows: at
  the first tile of a batch it computes the batch's projection once into a scratch that the batch's other three
  tiles read; per tile it forms the energies against the scratch, their softmax (maximum, exponential of the
  difference, sum, quotient: the same operations in the same order as the reference's), the context, and the
  output projection as the SUM of two matrix products, one with the first 1024 columns of `wo` against the context
  and one with the last 1024 against the state, instead of one product against their concatenation. Its
  reduced-precision casts are the identity on the extended reals.

  So the two sides agree entry by entry, and the only laws used are: a matrix product into a zero accumulator is a
  plain sum; a sum started from zero is the sum; a running maximum started from -∞ is unchanged by one more
  maximum with -∞; and a sum over 2048 indices is the sum of the sums over its two halves. None of them needs the
  arguments to be finite, so the precondition is not opened.

  Modules: AttnSpec (the layer over coordinates, and the two laws), AttnRef (the reference's stages are the
  layer's quantities), AttnBody (the body's arithmetic read at an index), AttnPieces (what one run of the body
  leaves in each buffer), AttnTile (one tile of each result), AttnBlocks (the scratch holds the batch's projection
  after every point; the 64 blocks tile each result array; the run).
-/
import proofs.«165069_j21706764714809_2_alg».proof.Defs
import proofs.«165069_j21706764714809_2_alg».proof.Proof.Gen.Kernel
import proofs.«165069_j21706764714809_2_alg».proof.Proof.Gen.Kernel.Skeleton
import proofs.«165069_j21706764714809_2_alg».proof.Proof.Gen.Kernel.Launch
import proofs.«165069_j21706764714809_2_alg».proof.Proof.Gen.Kernel.Points
import proofs.«165069_j21706764714809_2_alg».proof.Proof.Gen.Kernel.Frame
import proofs.«165069_j21706764714809_2_alg».proof.Proof.Gen.KernelIdeal
import proofs.«165069_j21706764714809_2_alg».proof.Proof.Gen.KernelIdeal.Skeleton
import proofs.«165069_j21706764714809_2_alg».proof.Proof.Gen.KernelIdeal.Launch
import proofs.«165069_j21706764714809_2_alg».proof.Proof.Gen.KernelIdeal.Points
import proofs.«165069_j21706764714809_2_alg».proof.Proof.Gen.KernelIdeal.Frame
import proofs.«165069_j21706764714809_2_alg».proof.Proof.Gen.ReferenceIdeal
import proofs.«165069_j21706764714809_2_alg».proof.Proof.Gen.Pre_finite_inputs
import proofs.«165069_j21706764714809_2_alg».proof.Proof.Gen.KernelIdeal.Value
import proofs.«165069_j21706764714809_2_alg».proof.Proof.Gen.ReferenceIdeal.Run
import proofs.«165069_j21706764714809_2_alg».proof.Proof.Gen.ReferenceIdeal.Read
import proofs.«165069_j21706764714809_2_alg».proof.Proof.AttnSpec
import proofs.«165069_j21706764714809_2_alg».proof.Proof.AttnRef
import proofs.«165069_j21706764714809_2_alg».proof.Proof.AttnBlocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealizing pass rewrote nothing. -/
theorem preserves : Cert.preserves_Kernel_KernelIdeal := trivial

/-- From memories that agree on the arguments both programs end with the attentional state, the softmax weights and
    the energies of the attention layer of those arguments. -/
theorem algebraic : Cert.algebraic_KernelIdeal_ReferenceIdeal := by
  intro m ρ m' ρ' _ hagree
  refine ⟨fun c => Attn.htildes (Cert.KernelIdeal.AttnValue.aH m c) (Cert.KernelIdeal.AttnValue.aE m c) (Cert.KernelIdeal.AttnValue.aWA m c) (Cert.KernelIdeal.AttnValue.aB m c) (Cert.KernelIdeal.AttnValue.aWO m c),
    fun c => Attn.weights (Cert.KernelIdeal.AttnValue.aH m c) (Cert.KernelIdeal.AttnValue.aE m c) (Cert.KernelIdeal.AttnValue.aWA m c) (Cert.KernelIdeal.AttnValue.aB m c),
    fun c => Attn.energies (Cert.KernelIdeal.AttnValue.aH m c) (Cert.KernelIdeal.AttnValue.aE m c) (Cert.KernelIdeal.AttnValue.aWA m c) (Cert.KernelIdeal.AttnValue.aB m c),
    Cert.KernelIdeal.AttnValue.run m ρ, ?_⟩
  refine (θ_run Cert.ReferenceIdeal.defs _ _).mono (fun _ h c => ?_) (Cert.ReferenceIdeal.Value.run (F := Ideal) m' ρ')
  obtain ⟨h19, h15, h4, hargs⟩ := h c
  obtain ⟨a0, a1, a2, a3, a4⟩ := hagree c
  refine ⟨?_, ?_, ?_, hargs⟩
  · rw [h19, Cert.ReferenceIdeal.Read.val_main_v19_eq, Cert.ReferenceIdeal.RefValue.htildes_eq, a0, a1, a2, a3, a4]
  · rw [h15, Cert.ReferenceIdeal.Read.val_main_v15_eq, Cert.ReferenceIdeal.RefValue.weights_eq, a0, a1, a2, a3]
  · rw [h4, Cert.ReferenceIdeal.Read.val_main_v4_eq, Cert.ReferenceIdeal.RefValue.energies_eq, a0, a1, a2, a3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
